-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32x64 .f32) (main_arg6 : FVec F S32 .f32) (main_arg7 : FVec F S32x64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg7
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S64x128 .f32) (main_arg3 : FVec F S64 .f32) (main_arg4 : FVec F S64x128 .f32) (main_arg5 : FVec F S32x64 .f32) (main_arg6 : FVec F S32 .f32) (main_arg7 : FVec F S32x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S32x64 : Shape := ⟨2, ![32, 64]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S128x64 : Shape := ⟨2, ![128, 64]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S64x32 : Shape := ⟨2, ![64, 32]⟩
abbrev S1x32 : Shape := ⟨2, ![1, 32]⟩
abbrev S100000x32 : Shape := ⟨2, ![100000, 32]⟩
abbrev S5000x32 : Shape := ⟨2, ![5000, 32]⟩

abbrev nBuf : Space → Nat
  | .hbm => 63
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S32x64, .f32⟩
  | .hbm, ⟨6, _⟩ => ⟨S32, .f32⟩
  | .hbm, ⟨7, _⟩ => ⟨S32x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S128x64, .f32⟩
  | .hbm, ⟨41, _⟩ => ⟨S128x64, .f32⟩
  | .hbm, ⟨42, _⟩ => ⟨S1x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S64x32, .f32⟩
  | .hbm, ⟨60, _⟩ => ⟨S64x32, .f32⟩
  | .hbm, ⟨61, _⟩ => ⟨S1x32, .f32⟩
  | .hbm, ⟨62, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S1x64, .f32⟩
  | .local _ .vmem, ⟨6, _⟩ => ⟨S128x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x32, .f32⟩
  | .local _ .vmem, ⟨14, _⟩ => ⟨S1x32, .f32⟩
  | .local _ .vmem, ⟨15, _⟩ => ⟨S64x32, .f32⟩
  | .local _ .vmem, ⟨16, _⟩ => ⟨S5000x32, .f32⟩
  | .local _ .vmem, ⟨17, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S64x128_S128x64_1_0 : S64x128.Transposes [1, 0] S128x64
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S32x64_S64x32_1_0 : S32x64.Transposes [1, 0] S64x32
  shapeCasts_S32_S1x32 : S32.ShapeCasts S1x32
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S32x64 : Shape := ⟨2, ![32, 64]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S128x64 : Shape := ⟨2, ![128, 64]⟩
abbrev S100000x64 : Shape := ⟨2, ![100000, 64]⟩
abbrev S1x64 : Shape := ⟨2, ![1, 64]⟩
abbrev S1600000x64 : Shape := ⟨2, ![1600000, 64]⟩
abbrev S64x32 : Shape := ⟨2, ![64, 32]⟩
abbrev S100000x32 : Shape := ⟨2, ![100000, 32]⟩
abbrev S1x32 : Shape := ⟨2, ![1, 32]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S32x64, .f32⟩
  | .hbm, ⟨6, _⟩ => ⟨S32, .f32⟩
  | .hbm, ⟨7, _⟩ => ⟨S32x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S128x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x32, .f32⟩
  | .hbm, ⟨74, _⟩ => ⟨S100000x32, .f32⟩
  | .hbm, ⟨75, _⟩ => ⟨S1x32, .f32⟩
  | .hbm, ⟨76, _⟩ => ⟨S100000x32, .f32⟩
  | .hbm, ⟨77, _⟩ => ⟨S100000x32, .f32⟩
  | .hbm, ⟨78, _⟩ => ⟨S64x32, .f32⟩
  | .hbm, ⟨79, _⟩ => ⟨S100000x32, .f32⟩
  | .hbm, ⟨80, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KernelRun.lean ====
/-
  The idealized kernel's run, with its result named.

  @main is a stretch of host operations, the first layer's region, a second stretch, the second layer's region.
  Every weakly fair execution terminates, and when it does every unscoped buffer of the core holds the contents
  the fold through those four segments gives it (`W4`): the arguments their launch contents, the result buffer
  what the second region's write-backs leave in its output array.
-/
import proofs.«134384_j25958782337776_1_alg».proof.Proof.Gen.KernelIdeal.Frame

set_option maxRecDepth 16384

noncomputable section

namespace Cert.Sage.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched. -/
theorem run_result : θ_run defs (onTc (τ := τ) (main (F := F))) ⟨m, fun _ => 0, ρ⟩ (fun r => ∀ c : Dev nD,
      r.2.mem ((c.tc : Thread nD τ).loc main_v44) = W4 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v44 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.Sage.Run

end
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.LayerBody.lean ====
/-
  The two kernel bodies, read at an entry.

  Each body takes a block of 5000 rows of the neighbour means `a` and of the node features `x`, the two
  weight matrices already transposed (`wl`, `wr`: input width × output width) and the bias as a one-row
  matrix `b`, and stores, at row `p` and column `q` of the block,

      (Σₖ a[p,k] · wl[k,q]  +  b[0,q])  +  Σₖ x[p,k] · wr[k,q]

  — the first layer (width 128 → 64) clamps this below at zero, the second (64 → 32) stores it as it is. The
  narrowing of the operands to bf16 before each product is the identity on the extended reals, each product is
  a matrix product into a zero accumulator, and the bias is broadcast down the rows.
-/
import proofs.«134384_j25958782337776_1_alg».proof.Proof.Gen.KernelIdeal.Skeleton
import proofs.«134384_j25958782337776_1_alg».proof.Proof.LibMatDot
import Idealize.ShloMosaic.Lib.Pipeline.Value
import Idealize.ShloMosaic.Lib.ValueIdx
import Idealize.ShloMosaic.PureOps.Ideal.Laws

noncomputable section

open scoped BigOperators

namespace Cert.Sage.Body

open Idealize.ShloMosaic Idealize.ShloMosaic.ValueIdx Cert.KernelIdeal Cert.KernelIdeal.Gen

/-! ## Where the two product records read their operands -/

theorem d0_l0 (j : S5000x64.Idx) (c : dot_S5000x128_S128x64_S5000x64_1_0_0_1_n_n.contr.Idx) :
    (dot_S5000x128_S128x64_S5000x64_1_0_0_1_n_n.lhsIdx j c 0).val = (j 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem d0_l1 (j : S5000x64.Idx) (c : dot_S5000x128_S128x64_S5000x64_1_0_0_1_n_n.contr.Idx) :
    (dot_S5000x128_S128x64_S5000x64_1_0_0_1_n_n.lhsIdx j c 1).val = (c ⟨0, by decide⟩).val :=
  dot_S5000x128_S128x64_S5000x64_1_0_0_1_n_n.lhsIdx_val_of_single rfl j c
theorem d0_r0 (j : S5000x64.Idx) (c : dot_S5000x128_S128x64_S5000x64_1_0_0_1_n_n.contr.Idx) :
    (dot_S5000x128_S128x64_S5000x64_1_0_0_1_n_n.rhsIdx j c 0).val = (c ⟨0, by decide⟩).val :=
  dot_S5000x128_S128x64_S5000x64_1_0_0_1_n_n.rhsIdx_val_of_single rfl j c
theorem d0_r1 (j : S5000x64.Idx) (c : dot_S5000x128_S128x64_S5000x64_1_0_0_1_n_n.contr.Idx) :
    (dot_S5000x128_S128x64_S5000x64_1_0_0_1_n_n.rhsIdx j c 1).val = (j 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

theorem d1_l0 (j : S5000x32.Idx) (c : dot_S5000x64_S64x32_S5000x32_1_0_0_1_n_n.contr.Idx) :
    (dot_S5000x64_S64x32_S5000x32_1_0_0_1_n_n.lhsIdx j c 0).val = (j 0).val := by
  unfold DotDims.lhsIdx
  rw [dif_neg (show ¬(0 : Fin S5000x64.rank) ∈ dot_S5000x64_S64x32_S5000x32_1_0_0_1_n_n.lhsBatch by decide),
    dif_pos (show (0 : Fin S5000x64.rank) ∈ dot_S5000x64_S64x32_S5000x32_1_0_0_1_n_n.lhsNonContracting by decide)]
  rfl
theorem d1_l1 (j : S5000x32.Idx) (c : dot_S5000x64_S64x32_S5000x32_1_0_0_1_n_n.contr.Idx) :
    (dot_S5000x64_S64x32_S5000x32_1_0_0_1_n_n.lhsIdx j c 1).val = (c ⟨0, by decide⟩).val :=
  dot_S5000x64_S64x32_S5000x32_1_0_0_1_n_n.lhsIdx_val_of_single rfl j c
theorem d1_r0 (j : S5000x32.Idx) (c : dot_S5000x64_S64x32_S5000x32_1_0_0_1_n_n.contr.Idx) :
    (dot_S5000x64_S64x32_S5000x32_1_0_0_1_n_n.rhsIdx j c 0).val = (c ⟨0, by decide⟩).val :=
  dot_S5000x64_S64x32_S5000x32_1_0_0_1_n_n.rhsIdx_val_of_single rfl j c
theorem d1_r1 (j : S5000x32.Idx) (c : dot_S5000x64_S64x32_S5000x32_1_0_0_1_n_n.contr.Idx) :
    (dot_S5000x64_S64x32_S5000x32_1_0_0_1_n_n.rhsIdx j c 1).val = (j 1).val := by
  unfold DotDims.rhsIdx
  rw [dif_neg (show ¬(1 : Fin S64x32.rank) ∈ dot_S5000x64_S64x32_S5000x32_1_0_0_1_n_n.rhsBatch by decide),
    dif_pos (show (1 : Fin S64x32.rank) ∈ dot_S5000x64_S64x32_S5000x32_1_0_0_1_n_n.rhsNonContracting by decide)]
  rfl

/-! ## The bias row broadcast down the block -/

theorem bias0_apply (b : FVec Ideal S1x64 .f32) (p : Fin 5000) (q : Fin 64) :
    broadcastTo S5000x64 b broadcasts_S1x64_S5000x64 (ix2 p q) = b (ix2 (0 : Fin 1) q) :=
  broadcastTo_apply b broadcasts_S1x64_S5000x64 (ix2 p q) (ix2 (0 : Fin 1) q) (fun a => by
    match a with
    | ⟨0, _⟩ => rfl
    | ⟨1, _⟩ => rfl)

theorem bias1_apply (b : FVec Ideal S1x32 .f32) (p : Fin 5000) (q : Fin 32) :
    broadcastTo S5000x32 b broadcasts_S1x32_S5000x32 (ix2 p q) = b (ix2 (0 : Fin 1) q) :=
  broadcastTo_apply b broadcasts_S1x32_S5000x32 (ix2 p q) (ix2 (0 : Fin 1) q) (fun a => by
    match a with
    | ⟨0, _⟩ => rfl
    | ⟨1, _⟩ => rfl)

/-! ## The bodies -/

/-- The first layer's stored block at (p, q). -/
theorem body0_apply (a x : Vec Ideal S5000x128 .f32) (wl wr : Vec Ideal S128x64 .f32) (b : Vec Ideal S1x64 .f32)
    (p : Fin 5000) (q : Fin 64) :
    k0_pay1 (F := Ideal) a x wl wr b (ix2 p q)
      = max ((∑ k : Fin 128, a (ix2 p k) * wl (ix2 k q) + b (ix2 (0 : Fin 1) q))
              + ∑ k : Fin 128, x (ix2 p k) * wr (ix2 k q)) (Ideal.ofBits .f32 0x00000000#32) := by
  unfold k0_pay1
  simp only [shapeCast_self]
  show max ((FloatOps.matmul dot_S5000x128_S128x64_S5000x64_1_0_0_1_n_n none (truncf .bf16 a bitsLt_bf16_f32) (truncf .bf16 wl bitsLt_bf16_f32) (constant (F := Ideal) S5000x64 .f32 0x00000000#32) (ix2 p q)
        + broadcastTo S5000x64 b broadcasts_S1x64_S5000x64 (ix2 p q))
      + FloatOps.matmul dot_S5000x128_S128x64_S5000x64_1_0_0_1_n_n none (truncf .bf16 x bitsLt_bf16_f32) (truncf .bf16 wr bitsLt_bf16_f32) (constant (F := Ideal) S5000x64 .f32 0x00000000#32) (ix2 p q)) _ = _
  rw [mat_dot_zero dot_S5000x128_S128x64_S5000x64_1_0_0_1_n_n none rfl rfl d0_l0 d0_l1 d0_r0 d0_r1,
    mat_dot_zero dot_S5000x128_S128x64_S5000x64_1_0_0_1_n_n none rfl rfl d0_l0 d0_l1 d0_r0 d0_r1, bias0_apply]
  rfl

/-- The second layer's stored block at (p, q). -/
theorem body1_apply (a x : Vec Ideal S5000x64 .f32) (wl wr : Vec Ideal S64x32 .f32) (b : Vec Ideal S1x32 .f32)
    (p : Fin 5000) (q : Fin 32) :
    k1_pay1 (F := Ideal) a x wl wr b (ix2 p q)
      = (∑ k : Fin 64, a (ix2 p k) * wl (ix2 k q) + b (ix2 (0 : Fin 1) q))
          + ∑ k : Fin 64, x (ix2 p k) * wr (ix2 k q) := by
  unfold k1_pay1
  simp only [shapeCast_self]
  show (FloatOps.matmul dot_S5000x64_S64x32_S5000x32_1_0_0_1_n_n none (truncf .bf16 a bitsLt_bf16_f32) (truncf .bf16 wl bitsLt_bf16_f32) (constant (F := Ideal) S5000x32 .f32 0x00000000#32) (ix2 p q)
        + broadcastTo S5000x32 b broadcasts_S1x32_S5000x32 (ix2 p q))
      + FloatOps.matmul dot_S5000x64_S64x32_S5000x32_1_0_0_1_n_n none (truncf .bf16 x bitsLt_bf16_f32) (truncf .bf16 wr bitsLt_bf16_f32) (constant (F := Ideal) S5000x32 .f32 0x00000000#32) (ix2 p q) = _
  rw [mat_dot_zero dot_S5000x64_S64x32_S5000x32_1_0_0_1_n_n none rfl rfl d1_l0 d1_l1 d1_r0 d1_r1,
    mat_dot_zero dot_S5000x64_S64x32_S5000x32_1_0_0_1_n_n none rfl rfl d1_l0 d1_l1 d1_r0 d1_r1, bias1_apply]
  rfl

end Cert.Sage.Body

end
-- ==== Proof.LayerBlocks0.lean ====
/-
  The first layer's output array, from its row blocks.

  The grid has 20 points; point `t` reads rows `5000·t … 5000·t + 4999` of the neighbour means and of the node
  features, the whole of both transposed weight matrices and of the bias row, and writes back the same rows of the
  output. So what point `t` writes back is block `t` of ONE function of the whole arrays,

      out[r, q] = max( (Σₖ a[r,k] · wl[k,q] + b[0,q]) + Σₖ x[r,k] · wr[k,q], 0 ),

  and since row `r` lies in block `r / 5000` the blocks cover the output: the array ends holding that function.
-/
import proofs.«134384_j25958782337776_1_alg».proof.Proof.Gen.KernelIdeal.Frame
import proofs.«134384_j25958782337776_1_alg».proof.Proof.LayerBody

set_option maxRecDepth 16384

noncomputable section

open scoped BigOperators

namespace Cert.Sage.Blocks0

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The first layer at row `r`, column `q`, of whole arrays. -/
def layerAt (a x : S100000x128.Idx → Elt Ideal .f32) (wl wr : S128x64.Idx → Elt Ideal .f32) (b : S1x64.Idx → Elt Ideal .f32)
    (r : Fin 100000) (q : Fin 64) : EReal :=
  max ((∑ k : Fin 128, a (ix2 r k) * wl (ix2 k q) + b (ix2 (0 : Fin 1) q)) + ∑ k : Fin 128, x (ix2 r k) * wr (ix2 k q))
    (Ideal.ofBits .f32 0x00000000#32)

/-- The first layer as one function of whole arrays, index by index. -/
def layer (a x : S100000x128.Idx → Elt Ideal .f32) (wl wr : S128x64.Idx → Elt Ideal .f32) (b : S1x64.Idx → Elt Ideal .f32) :
    S100000x64.Idx → Elt Ideal .f32 :=
  fun i => layerAt a x wl wr b ⟨(i 0).val, (i 0).isLt⟩ ⟨(i 1).val, (i 1).isLt⟩

theorem hz : (![0, 0] : Fin 2 → Nat) = fun _ => 0 := funext fun a => by fin_cases a <;> rfl

/-- The printed index maps over the grid: the row-blocked windows sit at block row `t`, block column 0; the weights
    and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The body's stored entry (p, q), over blocks read through any placements that put block row `p` at array row `r`
    and leave the weights and the bias where they are, is the layer function at (r, q). -/
theorem block_read (A X : S100000x128.Idx → Elt Ideal .f32) (WL WR : S128x64.Idx → Elt Ideal .f32) (B : S1x64.Idx → Elt Ideal .f32)
    (e0 e1 : S5000x128.Idx → S100000x128.Idx) (e2 e4 : S128x64.Idx → S128x64.Idx) (e3 : S1x64.Idx → S1x64.Idx)
    (i : S100000x64.Idx) (r : Fin 100000) (p : Fin 5000) (q : Fin 64)
    (h0 : ∀ k : Fin 128, e0 (ix2 p k) = ix2 r k) (h1 : ∀ k : Fin 128, e1 (ix2 p k) = ix2 r k)
    (h2 : ∀ k : Fin 128, e2 (ix2 k q) = ix2 k q) (h4 : ∀ k : Fin 128, e4 (ix2 k q) = ix2 k q)
    (h3 : e3 (ix2 (0 : Fin 1) q) = ix2 (0 : Fin 1) q) (h5 : i = ix2 r q) :
    max ((∑ k : Fin 128, A (e0 (ix2 p k)) * WL (e2 (ix2 k q)) + B (e3 (ix2 (0 : Fin 1) q)))
        + ∑ k : Fin 128, X (e1 (ix2 p k)) * WR (e4 (ix2 k q))) (Ideal.ofBits .f32 0x00000000#32)
      = layer A X WL WR B i := by
  subst h5
  simp only [h0, h1, h2, h4, h3]
  rfl

variable (V : (c : Dev nD) → (b : Ref sig .tc) → Buf (Elt Ideal) ((c : Thread nD τ).loc b))

/-- What point `t` writes back is block `t` of the layer function of the arrays as the region finds them. -/
theorem flushed_eq (c : Dev nD) (t : Fin cfg0.N) :
    (dat0 (F := Ideal) V c).flushed 5 t = ((cfg0.win 5).blk t).view.read (Elt Ideal)
      (layer (V c main_v24) (V c main_arg0) (V c main_v25) (V c main_v26) (V c main_v27)) := by
  show (cfg0.win 5).cut (grid0.coords t) ((dat0 (F := Ideal) V c).after 5 t) = _
  rw [after0_5]
  unfold out0_5
  rw [View.canon_unit_zero hz]
  simp only [View.ld_unit_zero (S := S5000x128) hz, View.ld_unit_zero (S := S128x64) hz, View.ld_unit_zero (S := S1x64) hz]
  obtain ⟨e00, e01, e10, e11, e20, e21, e30, e31, e40, e41, e50, e51⟩ := idx_facts t
  have ht : t.val < 20 := t.isLt
  funext j
  obtain ⟨p, q, rfl⟩ : ∃ (p : Fin 5000) (q : Fin 64), j = ix2 p q := ⟨j 0, j 1, eq_ix2 j⟩
  refine (Cert.Sage.Body.body0_apply (iblk0 V c 0 t) (iblk0 V c 1 t) (iblk0 V c 2 t) (iblk0 V c 4 t) (iblk0 V c 3 t) p q).trans ?_
  have hp : p.val < 5000 := p.isLt
  have hq : q.val < 64 := q.isLt
  -- the row of the whole arrays that row `p` of block `t` is
  have hr : t.val * 5000 + p.val < 100000 := by omega
  refine block_read (V c main_v24) (V c main_arg0) (V c main_v25) (V c main_v26) (V c main_v27)
    ((cfg0.win 0).blk t).view.emb ((cfg0.win 1).blk t).view.emb ((cfg0.win 2).blk t).view.emb ((cfg0.win 4).blk t).view.emb
    ((cfg0.win 3).blk t).view.emb (((cfg0.win 5).blk t).view.emb (ix2 p q)) ⟨t.val * 5000 + p.val, hr⟩ p q ?_ ?_ ?_ ?_ ?_ ?_
  · intro k; funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  · intro k; funext a; apply Fin.ext
    match a with
    | ⟨0, _⟩ => show win0_1.index t (0 : Fin 2) * 5000 + 1 * p.val = t.val * 5000 + p.val; omega
    | ⟨1, _⟩ => show win0_1.index t (1 : Fin 2) * 128 + 1 * k.val = k.val; omega
  · intro k; funext a; apply Fin.ext
    match a with
    | ⟨0, _⟩ => show win0_2.index t (0 : Fin 2) * 128 + 1 * k.val = k.val; omega
    | ⟨1, _⟩ => show win0_2.index t (1 : Fin 2) * 64 + 1 * q.val = q.val; omega
  · intro k; funext a; apply Fin.ext
    match a with
    | ⟨0, _⟩ => show win0_4.index t (0 : Fin 2) * 128 + 1 * k.val = k.val; omega
    | ⟨1, _⟩ => show win0_4.index t (1 : Fin 2) * 64 + 1 * q.val = q.val; omega
  · funext a; apply Fin.ext
    match a with
    | ⟨0, _⟩ => show win0_3.index t (0 : Fin 2) * 1 + 1 * 0 = 0; omega
    | ⟨1, _⟩ => show win0_3.index t (1 : Fin 2) * 64 + 1 * q.val = q.val; omega
  · funext a; apply Fin.ext
    match a with
    | ⟨0, _⟩ => show win0_5.index t (0 : Fin 2) * 5000 + 1 * p.val = t.val * 5000 + p.val; omega
    | ⟨1, _⟩ => show win0_5.index t (1 : Fin 2) * 64 + 1 * q.val = q.val; omega

/-- An index of the output is in point `t`'s block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v28).slice (win0_5.rect t)).set ↔ _
  rw [View.set_slice_whole, Rect.mem_set_unit]
  exact Iff.rfl

/-- Row `r` is in block `r / 5000`: the blocks cover the output. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, -, -, -, -, -, -, e50, e51⟩ := idx_facts t
  have tv : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- The output array after the region: the layer function of the arrays as the region finds them. -/
theorem final (c : Dev nD) :
    (dat0 (F := Ideal) V c).arrAt 5 cfg0.N = layer (V c main_v24) (V c main_arg0) (V c main_v25) (V c main_v26) (V c main_v27) :=
  (dat0 (F := Ideal) V c).arrAt_eq_of_cover 5 _ (fun t _ => flushed_eq V c t) cover

end Cert.Sage.Blocks0

end
-- ==== Proof.LayerBlocks1.lean ====
/-
  The second layer's output array, from its row blocks.

  The grid has 20 points; point `t` reads rows `5000·t … 5000·t + 4999` of the neighbour means of the hidden
  features and of the hidden features themselves, the whole of both transposed weight matrices and of the bias row,
  and writes back the same rows of the output. So what point `t` writes back is block `t` of ONE function of the
  whole arrays,

      out[r, q] = (Σₖ a[r,k] · wl[k,q] + b[0,q]) + Σₖ x[r,k] · wr[k,q],

  and since row `r` lies in block `r / 5000` the blocks cover the output: the array ends holding that function.
-/
import proofs.«134384_j25958782337776_1_alg».proof.Proof.Gen.KernelIdeal.Frame
import proofs.«134384_j25958782337776_1_alg».proof.Proof.LayerBody

set_option maxRecDepth 16384

noncomputable section

open scoped BigOperators

namespace Cert.Sage.Blocks1

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The second layer at row `r`, column `q`, of whole arrays. -/
def layerAt (a x : S100000x64.Idx → Elt Ideal .f32) (wl wr : S64x32.Idx → Elt Ideal .f32) (b : S1x32.Idx → Elt Ideal .f32)
    (r : Fin 100000) (q : Fin 32) : EReal :=
  (∑ k : Fin 64, a (ix2 r k) * wl (ix2 k q) + b (ix2 (0 : Fin 1) q)) + ∑ k : Fin 64, x (ix2 r k) * wr (ix2 k q)

/-- The second layer as one function of whole arrays, index by index. -/
def layer (a x : S100000x64.Idx → Elt Ideal .f32) (wl wr : S64x32.Idx → Elt Ideal .f32) (b : S1x32.Idx → Elt Ideal .f32) :
    S100000x32.Idx → Elt Ideal .f32 :=
  fun i => layerAt a x wl wr b ⟨(i 0).val, (i 0).isLt⟩ ⟨(i 1).val, (i 1).isLt⟩

theorem hz : (![0, 0] : Fin 2 → Nat) = fun _ => 0 := funext fun a => by fin_cases a <;> rfl

/-- The printed index maps over the grid: the row-blocked windows sit at block row `t`, block column 0; the weights
    and the bias at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The body's stored entry (p, q), over blocks read through any placements that put block row `p` at array row `r`
    and leave the weights and the bias where they are, is the layer function at (r, q). -/
theorem block_read (A X : S100000x64.Idx → Elt Ideal .f32) (WL WR : S64x32.Idx → Elt Ideal .f32) (B : S1x32.Idx → Elt Ideal .f32)
    (e0 e1 : S5000x64.Idx → S100000x64.Idx) (e2 e4 : S64x32.Idx → S64x32.Idx) (e3 : S1x32.Idx → S1x32.Idx)
    (i : S100000x32.Idx) (r : Fin 100000) (p : Fin 5000) (q : Fin 32)
    (h0 : ∀ k : Fin 64, e0 (ix2 p k) = ix2 r k) (h1 : ∀ k : Fin 64, e1 (ix2 p k) = ix2 r k)
    (h2 : ∀ k : Fin 64, e2 (ix2 k q) = ix2 k q) (h4 : ∀ k : Fin 64, e4 (ix2 k q) = ix2 k q)
    (h3 : e3 (ix2 (0 : Fin 1) q) = ix2 (0 : Fin 1) q) (h5 : i = ix2 r q) :
    (∑ k : Fin 64, A (e0 (ix2 p k)) * WL (e2 (ix2 k q)) + B (e3 (ix2 (0 : Fin 1) q)))
        + ∑ k : Fin 64, X (e1 (ix2 p k)) * WR (e4 (ix2 k q))
      = layer A X WL WR B i := by
  subst h5
  simp only [h0, h1, h2, h4, h3]
  rfl

variable (V : (c : Dev nD) → (b : Ref sig .tc) → Buf (Elt Ideal) ((c : Thread nD τ).loc b))

/-- What point `t` writes back is block `t` of the layer function of the arrays as the region finds them. -/
theorem flushed_eq (c : Dev nD) (t : Fin cfg1.N) :
    (dat1 (F := Ideal) V c).flushed 5 t = ((cfg1.win 5).blk t).view.read (Elt Ideal)
      (layer (V c main_v40) (V c main_v28) (V c main_v41) (V c main_v42) (V c main_v43)) := by
  show (cfg1.win 5).cut (grid1.coords t) ((dat1 (F := Ideal) V c).after 5 t) = _
  rw [after1_5]
  unfold out1_5
  rw [View.canon_unit_zero hz]
  simp only [View.ld_unit_zero (S := S5000x64) hz, View.ld_unit_zero (S := S64x32) hz, View.ld_unit_zero (S := S1x32) hz]
  obtain ⟨e00, e01, e10, e11, e20, e21, e30, e31, e40, e41, e50, e51⟩ := idx_facts t
  have ht : t.val < 20 := t.isLt
  funext j
  obtain ⟨p, q, rfl⟩ : ∃ (p : Fin 5000) (q : Fin 32), j = ix2 p q := ⟨j 0, j 1, eq_ix2 j⟩
  refine (Cert.Sage.Body.body1_apply (iblk1 V c 0 t) (iblk1 V c 1 t) (iblk1 V c 2 t) (iblk1 V c 4 t) (iblk1 V c 3 t) p q).trans ?_
  have hp : p.val < 5000 := p.isLt
  have hq : q.val < 32 := q.isLt
  -- the row of the whole arrays that row `p` of block `t` is
  have hr : t.val * 5000 + p.val < 100000 := by omega
  refine block_read (V c main_v40) (V c main_v28) (V c main_v41) (V c main_v42) (V c main_v43)
    ((cfg1.win 0).blk t).view.emb ((cfg1.win 1).blk t).view.emb ((cfg1.win 2).blk t).view.emb ((cfg1.win 4).blk t).view.emb
    ((cfg1.win 3).blk t).view.emb (((cfg1.win 5).blk t).view.emb (ix2 p q)) ⟨t.val * 5000 + p.val, hr⟩ p q ?_ ?_ ?_ ?_ ?_ ?_
  · intro k; funext a; apply Fin.ext
    match a with
    | ⟨0, _⟩ => show win1_0.index t (0 : Fin 2) * 5000 + 1 * p.val = t.val * 5000 + p.val; omega
    | ⟨1, _⟩ => show win1_0.index t (1 : Fin 2) * 64 + 1 * k.val = k.val; omega
  · intro k; funext a; apply Fin.ext
    match a with
    | ⟨0, _⟩ => show win1_1.index t (0 : Fin 2) * 5000 + 1 * p.val = t.val * 5000 + p.val; omega
    | ⟨1, _⟩ => show win1_1.index t (1 : Fin 2) * 64 + 1 * k.val = k.val; omega
  · intro k; funext a; apply Fin.ext
    match a with
    | ⟨0, _⟩ => show win1_2.index t (0 : Fin 2) * 64 + 1 * k.val = k.val; omega
    | ⟨1, _⟩ => show win1_2.index t (1 : Fin 2) * 32 + 1 * q.val = q.val; omega
  · intro k; funext a; apply Fin.ext
    match a with
    | ⟨0, _⟩ => show win1_4.index t (0 : Fin 2) * 64 + 1 * k.val = k.val; omega
    | ⟨1, _⟩ => show win1_4.index t (1 : Fin 2) * 32 + 1 * q.val = q.val; omega
  · funext a; apply Fin.ext
    match a with
    | ⟨0, _⟩ => show win1_3.index t (0 : Fin 2) * 1 + 1 * 0 = 0; omega
    | ⟨1, _⟩ => show win1_3.index t (1 : Fin 2) * 32 + 1 * q.val = q.val; omega
  · funext a; apply Fin.ext
    match a with
    | ⟨0, _⟩ => show win1_5.index t (0 : Fin 2) * 5000 + 1 * p.val = t.val * 5000 + p.val; omega
    | ⟨1, _⟩ => show win1_5.index t (1 : Fin 2) * 32 + 1 * q.val = q.val; omega

/-- An index of the output is in point `t`'s block iff each coordinate is in the block's range on its axis. -/
theorem mem_blk (t : Fin cfg1.N) (i : S100000x32.Idx) :
    i ∈ ((cfg1.win 5).blk t).view.set ↔ ∀ a : Fin 2, win1_5.index t a * S5000x32.size a ≤ (i a).val ∧ (i a).val < win1_5.index t a * S5000x32.size a + S5000x32.size a := by
  show i ∈ ((View.whole main_v44).slice (win1_5.rect t)).set ↔ _
  rw [View.set_slice_whole, Rect.mem_set_unit]
  exact Iff.rfl

/-- Row `r` is in block `r / 5000`: the blocks cover the output. -/
theorem cover (i : S100000x32.Idx) : ∃ t : Fin cfg1.N, (cfg1.win 5).flush t = true ∧ i ∈ ((cfg1.win 5).blk t).view.set := by
  have hi0 : (i 0).val < 100000 := (i 0).isLt
  have hi1 : (i 1).val < 32 := (i 1).isLt
  have hN : cfg1.N = 20 := N_1
  let t : Fin cfg1.N := ⟨(i 0).val / 5000, by rw [hN]; omega⟩
  obtain ⟨-, -, -, -, -, -, -, -, -, -, e50, e51⟩ := idx_facts t
  have tv : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 32 ≤ (i 1).val ∧ (i 1).val < win1_5.index t (1 : Fin 2) * 32 + 32; omega

/-- The output array after the region: the layer function of the arrays as the region finds them. -/
theorem final (c : Dev nD) :
    (dat1 (F := Ideal) V c).arrAt 5 cfg1.N = layer (V c main_v40) (V c main_v28) (V c main_v41) (V c main_v42) (V c main_v43) :=
  (dat1 (F := Ideal) V c).arrAt_eq_of_cover 5 _ (fun t _ => flushed_eq V c t) cover

end Cert.Sage.Blocks1

end
-- ==== Proof.KernelTerms.lean ====
/-
  The kernel's host-side pieces, named.

  From the edge list (two rows of 1,600,000 node numbers: sources, destinations) the kernel's host code forms, once,
  the source column with negative numbers wrapped by the node count, the destination column, and the reciprocal of
  each node's in-degree clamped below at one (the in-degree being a scatter-add of ones along the destinations). A
  layer's neighbour mean of a feature array is then the scatter-add along the destinations of the rows gathered at
  the sources, times that reciprocal broadcast along the feature axis. The whole program is two layers: the second
  layer's features are the first layer's output.
-/
import proofs.«134384_j25958782337776_1_alg».proof.Proof.LayerBlocks0
import proofs.«134384_j25958782337776_1_alg».proof.Proof.LayerBlocks1

noncomputable section

namespace Cert.Sage.KTerms

open Idealize.ShloMosaic Cert.KernelIdeal Cert.KernelIdeal.Facts₀

/-- The source row of the edge list. -/
def srcRow (e : IVec S2x1600000 32) : IVec S1600000 32 :=
  shapeCast S1600000 (extractStridedSlice S1x1600000 ![0, 0] e slices_S2x1600000_S1x1600000_0_0) shapeCasts_S1x1600000_S1600000

/-- The destination row of the edge list. -/
def dstRow (e : IVec S2x1600000 32) : IVec S1600000 32 :=
  shapeCast S1600000 (extractStridedSlice S1x1600000 ![1, 0] e slices_S2x1600000_S1x1600000_1_0) shapeCasts_S1x1600000_S1600000

/-- The gather's index column: the sources, a negative one wrapped by the node count. -/
def srcCol (s : IVec S1600000 32) : IVec S1600000x1 32 :=
  broadcastInDim S1600000x1 ![0] bcast_S1600000_S1600000x1_0
    (select (cmpi CmpIPredicate.slt s (broadcastInDim S1600000 ![] bcast_S_S1600000 (constantI S_ 32 0#32)))
      (addi s (broadcastInDim S1600000 ![] bcast_S_S1600000 (constantI S_ 32 100000#32))) s)

/-- The scatter's index column: the destinations. -/
def dstCol (d : IVec S1600000 32) : IVec S1600000x1 32 :=
  broadcastInDim S1600000x1 ![0] bcast_S1600000_S1600000x1_0 d

/-- Each node's in-degree clamped below at one. -/
def degClamped (d : IVec S1600000 32) : FVec Ideal S100000 .f32 :=
  maximumf
    (Host.scatterAdd scatter_S100000_S1600000x1_S1600000_n_0_0_1
      (broadcastInDim S100000 ![] bcast_S_S100000 (constant S_ FTy.f32 0x00000000#32)) (dstCol d)
      (broadcastInDim S1600000 ![] bcast_S_S1600000 (constant S_ FTy.f32 0x3F800000#32)))
    (broadcastInDim S100000 ![] bcast_S_S100000 (constant S_ FTy.f32 0x3F800000#32))

/-- The reciprocal of the clamped in-degree, as a column. -/
def recipCol (d : IVec S1600000 32) : FVec Ideal S100000x1 .f32 :=
  broadcastInDim S100000x1 ![0] bcast_S100000_S100000x1_0
    (Host.divf (broadcastInDim S100000 ![] bcast_S_S100000 (constant S_ FTy.f32 0x3F800000#32)) (degClamped d))

/-- The neighbour sums of a 128-wide feature array. -/
def agg128 (s d : IVec S1600000 32) (feat : FVec Ideal S100000x128 .f32) : FVec Ideal S100000x128 .f32 :=
  Host.scatterAdd scatter_S100000x128_S1600000x1_S1600000x128_1_0_0_1
    (broadcastInDim S100000x128 ![] bcast_S_S100000x128 (constant S_ FTy.f32 0x00000000#32)) (dstCol d)
    (Host.gather gather_S100000x128_S1600000x1_S1600000x128_1_0_n_n_0_1_1128 feat (srcCol s))

/-- The neighbour sums of a 64-wide feature array. -/
def agg64 (s d : IVec S1600000 32) (feat : FVec Ideal S100000x64 .f32) : FVec Ideal S100000x64 .f32 :=
  Host.scatterAdd scatter_S100000x64_S1600000x1_S1600000x64_1_0_0_1
    (broadcastInDim S100000x64 ![] bcast_S_S100000x64 (constant S_ FTy.f32 0x00000000#32)) (dstCol d)
    (Host.gather gather_S100000x64_S1600000x1_S1600000x64_1_0_n_n_0_1_164 feat (srcCol s))

/-- The neighbour means the first region is handed: sums times the reciprocal column broadcast along the features. -/
def mean128 (s d : IVec S1600000 32) (rc : FVec Ideal S100000x1 .f32) (feat : FVec Ideal S100000x128 .f32) : FVec Ideal S100000x128 .f32 :=
  mulf (agg128 s d feat) (broadcastInDim S100000x128 ![0, 1] bcast_S100000x1_S100000x128_0_1 rc)

/-- The neighbour means the second region is handed. -/
def mean64 (s d : IVec S1600000 32) (rc : FVec Ideal S100000x1 .f32) (feat : FVec Ideal S100000x64 .f32) : FVec Ideal S100000x64 .f32 :=
  mulf (agg64 s d feat) (broadcastInDim S100000x64 ![0, 1] bcast_S100000x1_S100000x64_0_1 rc)

/-- The first layer's output: the hidden features. -/
def hidden (e : IVec S2x1600000 32) (x : FVec Ideal S100000x128 .f32) (w1l : FVec Ideal S64x128 .f32) (b1 : FVec Ideal S64 .f32)
    (w1r : FVec Ideal S64x128 .f32) : FVec Ideal S100000x64 .f32 :=
  Cert.Sage.Blocks0.layer (mean128 (srcRow e) (dstRow e) (recipCol (dstRow e)) x) x
    (transpose S128x64 [1, 0] w1l transposes_S64x128_S128x64_1_0) (transpose S128x64 [1, 0] w1r transposes_S64x128_S128x64_1_0)
    (shapeCast S1x64 b1 shapeCasts_S64_S1x64)

/-- The whole kernel as one function of its arguments. -/
def out (x : FVec Ideal S100000x128 .f32) (e : IVec S2x1600000 32) (w1l : FVec Ideal S64x128 .f32) (b1 : FVec Ideal S64 .f32)
    (w1r : FVec Ideal S64x128 .f32) (w2l : FVec Ideal S32x64 .f32) (b2 : FVec Ideal S32 .f32) (w2r : FVec Ideal S32x64 .f32) :
    FVec Ideal S100000x32 .f32 :=
  Cert.Sage.Blocks1.layer (mean64 (srcRow e) (dstRow e) (recipCol (dstRow e)) (hidden e x w1l b1 w1r)) (hidden e x w1l b1 w1r)
    (transpose S64x32 [1, 0] w2l transposes_S32x64_S64x32_1_0) (transpose S64x32 [1, 0] w2r transposes_S32x64_S64x32_1_0)
    (shapeCast S1x32 b2 shapeCasts_S32_S1x32)

end Cert.Sage.KTerms

end
-- ==== Proof.KernelValue.lean ====
/-
  What the kernel's result buffer holds after the run, as one function of the arguments.

  Reading the fold of buffer contents through @main backwards: the result buffer is the second region's output
  array, which its row blocks tile with the second layer function of the region's input arrays; those are what the
  second host stretch computed from the first region's output (the hidden features) and from the index columns and
  the reciprocal in-degree column the first stretch left; the hidden features are the first region's output array,
  tiled with the first layer function of what the first stretch computed from the arguments.
-/
import proofs.«134384_j25958782337776_1_alg».proof.Proof.KernelTerms
import Idealize.ShloMosaic.Lib.StableHlo.Run
import Idealize.ShloMosaic.PureOps.Ideal.Laws

set_option maxRecDepth 16384

noncomputable section

namespace Cert.Sage.KValue

open Idealize.ShloMosaic Idealize.ShloMosaic.TcCoe Idealize.SL.Sem Idealize.ShloMosaic.StableHlo
open Cert.KernelIdeal Cert.KernelIdeal.Facts₀ Cert.KernelIdeal.Gen Cert.Sage.KTerms

variable (m : (ℓ : Loc nD τ sig) → Buf (Elt Ideal) ℓ) (ρ : Dev nD → PrngReg)

/-! ## After the first host stretch -/

theorem W1_v1 (c : Dev nD) : W1 m ρ c (Proc.devRef .tc main_v1) = srcRow (m ((c.tc : Thread nD τ).loc main_arg1)) := by
  show StableHlo.after hostOps0 (W0 m ρ c) (Proc.devRef .tc main_v1) = _
  after_results_simp <;> rfl

theorem W1_v3 (c : Dev nD) : W1 m ρ c (Proc.devRef .tc main_v3) = dstRow (m ((c.tc : Thread nD τ).loc main_arg1)) := by
  show StableHlo.after hostOps0 (W0 m ρ c) (Proc.devRef .tc main_v3) = _
  after_results_simp <;> rfl

set_option maxHeartbeats 1000000 in
theorem W1_v12 (c : Dev nD) : W1 m ρ c (Proc.devRef .tc main_v12) = recipCol (dstRow (m ((c.tc : Thread nD τ).loc main_arg1))) := by
  show StableHlo.after hostOps0 (W0 m ρ c) (Proc.devRef .tc main_v12) = _
  after_results_simp <;> rfl

set_option maxHeartbeats 4000000 in
theorem V1_v24 (c : Dev nD) : V1 m ρ c main_v24
    = mean128 (srcRow (m ((c.tc : Thread nD τ).loc main_arg1))) (dstRow (m ((c.tc : Thread nD τ).loc main_arg1)))
        (recipCol (dstRow (m ((c.tc : Thread nD τ).loc main_arg1)))) (m ((c.tc : Thread nD τ).loc main_arg0)) := by
  show StableHlo.after hostOps0 (W0 m ρ c) (Proc.devRef .tc main_v24) = _
  after_results_simp <;> rfl

theorem V1_arg0 (c : Dev nD) : V1 m ρ c main_arg0 = m ((c.tc : Thread nD τ).loc main_arg0) := by
  show StableHlo.after hostOps0 (W0 m ρ c) (Proc.devRef .tc main_arg0) = _
  after_results_simp <;> rfl

theorem V1_v25 (c : Dev nD) : V1 m ρ c main_v25 = transpose S128x64 [1, 0] (m ((c.tc : Thread nD τ).loc main_arg2)) Facts₀.transposes_S64x128_S128x64_1_0 := by
  show StableHlo.after hostOps0 (W0 m ρ c) (Proc.devRef .tc main_v25) = _
  after_results_simp <;> rfl

theorem V1_v26 (c : Dev nD) : V1 m ρ c main_v26 = transpose S128x64 [1, 0] (m ((c.tc : Thread nD τ).loc main_arg4)) Facts₀.transposes_S64x128_S128x64_1_0 := by
  show StableHlo.after hostOps0 (W0 m ρ c) (Proc.devRef .tc main_v26) = _
  after_results_simp <;> rfl

theorem V1_v27 (c : Dev nD) : V1 m ρ c main_v27 = shapeCast S1x64 (m ((c.tc : Thread nD τ).loc main_arg3)) Facts₀.shapeCasts_S64_S1x64 := by
  show StableHlo.after hostOps0 (W0 m ρ c) (Proc.devRef .tc main_v27) = _
  after_results_simp <;> rfl

theorem W1_arg5 (c : Dev nD) : W1 m ρ c (Proc.devRef .tc main_arg5) = m ((c.tc : Thread nD τ).loc main_arg5) := by
  show StableHlo.after hostOps0 (W0 m ρ c) (Proc.devRef .tc main_arg5) = _
  after_results_simp <;> rfl

theorem W1_arg6 (c : Dev nD) : W1 m ρ c (Proc.devRef .tc main_arg6) = m ((c.tc : Thread nD τ).loc main_arg6) := by
  show StableHlo.after hostOps0 (W0 m ρ c) (Proc.devRef .tc main_arg6) = _
  after_results_simp <;> rfl

theorem W1_arg7 (c : Dev nD) : W1 m ρ c (Proc.devRef .tc main_arg7) = m ((c.tc : Thread nD τ).loc main_arg7) := by
  show StableHlo.after hostOps0 (W0 m ρ c) (Proc.devRef .tc main_arg7) = _
  after_results_simp <;> rfl

/-! ## After the first region -/

/-- The first region's output array: the hidden features. -/
theorem W2_v28 (c : Dev nD) : W2 m ρ c (Proc.devRef .tc main_v28)
    = hidden (m ((c.tc : Thread nD τ).loc main_arg1)) (m ((c.tc : Thread nD τ).loc main_arg0)) (m ((c.tc : Thread nD τ).loc main_arg2))
        (m ((c.tc : Thread nD τ).loc main_arg3)) (m ((c.tc : Thread nD τ).loc main_arg4)) := by
  refine (W2_arr m ρ c 5).trans ((Cert.Sage.Blocks0.final (V1 m ρ) c).trans ?_)
  rw [V1_v24 m ρ c, V1_arg0 m ρ c, V1_v25 m ρ c, V1_v26 m ρ c, V1_v27 m ρ c]
  rfl

theorem W2_v1 (c : Dev nD) : W2 m ρ c (Proc.devRef .tc main_v1) = srcRow (m ((c.tc : Thread nD τ).loc main_arg1)) :=
  (W2_of_ne m ρ c main_v1 (by decide)).trans (W1_v1 m ρ c)
theorem W2_v3 (c : Dev nD) : W2 m ρ c (Proc.devRef .tc main_v3) = dstRow (m ((c.tc : Thread nD τ).loc main_arg1)) :=
  (W2_of_ne m ρ c main_v3 (by decide)).trans (W1_v3 m ρ c)
theorem W2_v12 (c : Dev nD) : W2 m ρ c (Proc.devRef .tc main_v12) = recipCol (dstRow (m ((c.tc : Thread nD τ).loc main_arg1))) :=
  (W2_of_ne m ρ c main_v12 (by decide)).trans (W1_v12 m ρ c)
theorem W2_arg5 (c : Dev nD) : W2 m ρ c (Proc.devRef .tc main_arg5) = m ((c.tc : Thread nD τ).loc main_arg5) :=
  (W2_of_ne m ρ c main_arg5 (by decide)).trans (W1_arg5 m ρ c)
theorem W2_arg6 (c : Dev nD) : W2 m ρ c (Proc.devRef .tc main_arg6) = m ((c.tc : Thread nD τ).loc main_arg6) :=
  (W2_of_ne m ρ c main_arg6 (by decide)).trans (W1_arg6 m ρ c)
theorem W2_arg7 (c : Dev nD) : W2 m ρ c (Proc.devRef .tc main_arg7) = m ((c.tc : Thread nD τ).loc main_arg7) :=
  (W2_of_ne m ρ c main_arg7 (by decide)).trans (W1_arg7 m ρ c)

/-! ## After the second host stretch -/

set_option maxHeartbeats 4000000 in
theorem V3_v40 (c : Dev nD) : V3 m ρ c main_v40
    = mean64 (srcRow (m ((c.tc : Thread nD τ).loc main_arg1))) (dstRow (m ((c.tc : Thread nD τ).loc main_arg1)))
        (recipCol (dstRow (m ((c.tc : Thread nD τ).loc main_arg1))))
        (hidden (m ((c.tc : Thread nD τ).loc main_arg1)) (m ((c.tc : Thread nD τ).loc main_arg0)) (m ((c.tc : Thread nD τ).loc main_arg2))
          (m ((c.tc : Thread nD τ).loc main_arg3)) (m ((c.tc : Thread nD τ).loc main_arg4))) := by
  show StableHlo.after hostOps1 (W2 m ρ c) (Proc.devRef .tc main_v40) = _
  after_results_simp
  rw [W2_v1 m ρ c, W2_v3 m ρ c, W2_v12 m ρ c, W2_v28 m ρ c]
  rfl

theorem V3_v28 (c : Dev nD) : V3 m ρ c main_v28
    = hidden (m ((c.tc : Thread nD τ).loc main_arg1)) (m ((c.tc : Thread nD τ).loc main_arg0)) (m ((c.tc : Thread nD τ).loc main_arg2))
        (m ((c.tc : Thread nD τ).loc main_arg3)) (m ((c.tc : Thread nD τ).loc main_arg4)) := by
  show StableHlo.after hostOps1 (W2 m ρ c) (Proc.devRef .tc main_v28) = _
  after_results_simp
  exact W2_v28 m ρ c

theorem V3_v41 (c : Dev nD) : V3 m ρ c main_v41 = transpose S64x32 [1, 0] (m ((c.tc : Thread nD τ).loc main_arg5)) Facts₀.transposes_S32x64_S64x32_1_0 := by
  show StableHlo.after hostOps1 (W2 m ρ c) (Proc.devRef .tc main_v41) = _
  after_results_simp
  rw [W2_arg5 m ρ c]

theorem V3_v42 (c : Dev nD) : V3 m ρ c main_v42 = transpose S64x32 [1, 0] (m ((c.tc : Thread nD τ).loc main_arg7)) Facts₀.transposes_S32x64_S64x32_1_0 := by
  show StableHlo.after hostOps1 (W2 m ρ c) (Proc.devRef .tc main_v42) = _
  after_results_simp
  rw [W2_arg7 m ρ c]

theorem V3_v43 (c : Dev nD) : V3 m ρ c main_v43 = shapeCast S1x32 (m ((c.tc : Thread nD τ).loc main_arg6)) Facts₀.shapeCasts_S32_S1x32 := by
  show StableHlo.after hostOps1 (W2 m ρ c) (Proc.devRef .tc main_v43) = _
  after_results_simp
  rw [W2_arg6 m ρ c]
  rfl

/-! ## After the second region -/

/-- The result buffer at the last boundary: the whole kernel's function of the arguments. -/
theorem result (c : Dev nD) : W4 m ρ c (Proc.devRef .tc main_v44)
    = out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  refine (W4_arr m ρ c 5).trans ((Cert.Sage.Blocks1.final (V3 m ρ) c).trans ?_)
  rw [V3_v40 m ρ c, V3_v28 m ρ c, V3_v41 m ρ c, V3_v42 m ρ c, V3_v43 m ρ c]
  rfl

end Cert.Sage.KValue

end
-- ==== Proof.LibHostMatDot.lean ====
/-
  The host's matrix product of two rank-2 operands, `x · y`, read at an entry.

  For dimension numbers `d` over operands of shapes [M, K] and [K, N] and a result of shape [M, N] whose one
  contracted axis is the second of the left operand and the first of the right — given as the four coordinate
  facts of `d`'s operand index maps — a host `dot_general` at the ideal instance is, at entry (p, q),

      Σ_{k < K} lhs[p, k] · rhs[k, q],

  the same sum a matrix unit's product into the zero accumulator reads as.  The contraction's index type is
  re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- The host's `x · y` at entry (p, q): the sum over the shared axis of the products of row `p` of the left operand
    and column `q` of the right. The hypotheses say where the record's operand index maps read: the left operand
    at (row of the entry, contraction position), the right at (contraction position, column of the entry). -/
theorem host_mat_dot {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.LayerHost.lean ====
/-
  The layer functions against the host's operations.

  A layer of the reference is host operations on whole arrays: two matrix products, the bias broadcast down the rows,
  two sums, and for the first layer a clamp below at zero,

      max( (a · wl + bias) + x · wr , 0 )      and      (a · wl + bias) + x · wr .

  At an entry (r, q) a host matrix product is Σₖ lhs[r,k] · rhs[k,q], the broadcast bias is b[q] — as is the bias
  reshaped to a one-row matrix and read at (0, q), the form the kernel is handed — and the clamp is `max` with zero:
  entry by entry these are the layer functions the kernel's blocks tile.
-/
import proofs.«134384_j25958782337776_1_alg».proof.Proof.Gen.ReferenceIdeal.Read
import proofs.«134384_j25958782337776_1_alg».proof.Proof.LayerBlocks0
import proofs.«134384_j25958782337776_1_alg».proof.Proof.LayerBlocks1
import proofs.«134384_j25958782337776_1_alg».proof.Proof.LibHostMatDot

noncomputable section

open scoped BigOperators

namespace Cert.Sage.Host

open Idealize.ShloMosaic Idealize.ShloMosaic.ValueIdx Cert.ReferenceIdeal

/-! ## The bias at an entry, in both forms -/

/-- A vector reshaped to a one-row matrix, read at (0, q). -/
theorem row_cast_apply {n : Nat} (b : (⟨1, ![n]⟩ : Shape).Idx → EReal) (h : (⟨1, ![n]⟩ : Shape).ShapeCasts ⟨2, ![1, n]⟩) (q : Fin n) :
    shapeCast (⟨2, ![1, n]⟩ : Shape) b h (ix2 (0 : Fin 1) q) = b (ix1 q) :=
  (shapeCast_addUnit_apply ![n] b h (ix2 (0 : Fin 1) q)).trans
    (congrArg b (funext fun a => by match a with | ⟨0, _⟩ => rfl))

/-- The first layer's bias broadcast to a row and then down the rows, read at (r, q). -/
theorem bias0_host (b : FVec Ideal S64 .f32) (h0 : S64.BroadcastsInDim S1x64 ![1]) (h1 : S1x64.BroadcastsInDim S100000x64 ![0, 1])
    (r : Fin 100000) (q : Fin 64) :
    broadcastInDim S100000x64 ![0, 1] h1 (broadcastInDim S1x64 ![1] h0 b) (ix2 r q) = b (ix1 q) := by
  rw [broadcastInDim_apply ![0, 1] h1 _ (ix2 r q) (ix2 (0 : Fin 1) q) (fun a => by
    match a with
    | ⟨0, _⟩ => show 0 = if (1 : Nat) = 1 then 0 else r.val; rw [if_pos rfl]
    | ⟨1, _⟩ => show q.val = if (64 : Nat) = 1 then 0 else q.val; rw [if_neg (by decide)])]
  exact broadcastInDim_apply ![1] h0 b (ix2 (0 : Fin 1) q) (ix1 q) (fun a => by
    match a with
    | ⟨0, _⟩ => show q.val = if (64 : Nat) = 1 then 0 else q.val; rw [if_neg (by decide)])

/-- The second layer's bias broadcast to a row and then down the rows, read at (r, q). -/
theorem bias1_host (b : FVec Ideal S32 .f32) (h0 : S32.BroadcastsInDim S1x32 ![1]) (h1 : S1x32.BroadcastsInDim S100000x32 ![0, 1])
    (r : Fin 100000) (q : Fin 32) :
    broadcastInDim S100000x32 ![0, 1] h1 (broadcastInDim S1x32 ![1] h0 b) (ix2 r q) = b (ix1 q) := by
  rw [broadcastInDim_apply ![0, 1] h1 _ (ix2 r q) (ix2 (0 : Fin 1) q) (fun a => by
    match a with
    | ⟨0, _⟩ => show 0 = if (1 : Nat) = 1 then 0 else r.val; rw [if_pos rfl]
    | ⟨1, _⟩ => show q.val = if (32 : Nat) = 1 then 0 else q.val; rw [if_neg (by decide)])]
  exact broadcastInDim_apply ![1] h0 b (ix2 (0 : Fin 1) q) (ix1 q) (fun a => by
    match a with
    | ⟨0, _⟩ => show q.val = if (32 : Nat) = 1 then 0 else q.val; rw [if_neg (by decide)])

/-! ## The layers -/

/-- The first layer function, its bias handed over as a one-row matrix, is the host's first layer. -/
theorem layer0_host (A X : FVec Ideal S100000x128 .f32) (WL WR : FVec Ideal S128x64 .f32) (b : FVec Ideal S64 .f32)
    (hc : S64.ShapeCasts S1x64) (h0 : S64.BroadcastsInDim S1x64 ![1]) (h1 : S1x64.BroadcastsInDim S100000x64 ![0, 1])
    (hz : S_.BroadcastsInDim S100000x64 ![]) :
    Cert.Sage.Blocks0.layer A X WL WR (shapeCast S1x64 b hc)
      = maximumf (addf (addf (Host.dotGeneral dot_S100000x128_S128x64_S100000x64_1_0_0_1_n_n none A WL)
            (broadcastInDim S100000x64 ![0, 1] h1 (broadcastInDim S1x64 ![1] h0 b)))
          (Host.dotGeneral dot_S100000x128_S128x64_S100000x64_1_0_0_1_n_n none X WR))
        (broadcastInDim S100000x64 ![] hz (constant S_ .f32 0x00000000#32)) := by
  funext i
  obtain ⟨r, q, rfl⟩ : ∃ (r : Fin 100000) (q : Fin 64), i = ix2 r q := ⟨i 0, i 1, eq_ix2 i⟩
  show max ((∑ k : Fin 128, A (ix2 r k) * WL (ix2 k q) + shapeCast S1x64 b hc (ix2 (0 : Fin 1) q))
        + ∑ k : Fin 128, X (ix2 r k) * WR (ix2 k q)) (Ideal.ofBits .f32 0x00000000#32)
    = max ((Host.dotGeneral dot_S100000x128_S128x64_S100000x64_1_0_0_1_n_n none A WL (ix2 r q)
          + broadcastInDim S100000x64 ![0, 1] h1 (broadcastInDim S1x64 ![1] h0 b) (ix2 r q))
        + Host.dotGeneral dot_S100000x128_S128x64_S100000x64_1_0_0_1_n_n none X WR (ix2 r q)) (Ideal.ofBits .f32 0x00000000#32)
  rw [host_mat_dot dot_S100000x128_S128x64_S100000x64_1_0_0_1_n_n none rfl rfl Read.lhs_main_v24_0 Read.lhs_main_v24_1 Read.rhs_main_v24_0 Read.rhs_main_v24_1,
    host_mat_dot dot_S100000x128_S128x64_S100000x64_1_0_0_1_n_n none rfl rfl Read.lhs_main_v24_0 Read.lhs_main_v24_1 Read.rhs_main_v24_0 Read.rhs_main_v24_1,
    bias0_host, row_cast_apply]

/-- The second layer function, its bias handed over as a one-row matrix, is the host's second layer. -/
theorem layer1_host (A X : FVec Ideal S100000x64 .f32) (WL WR : FVec Ideal S64x32 .f32) (b : FVec Ideal S32 .f32)
    (hc : S32.ShapeCasts S1x32) (h0 : S32.BroadcastsInDim S1x32 ![1]) (h1 : S1x32.BroadcastsInDim S100000x32 ![0, 1]) :
    Cert.Sage.Blocks1.layer A X WL WR (shapeCast S1x32 b hc)
      = addf (addf (Host.dotGeneral dot_S100000x64_S64x32_S100000x32_1_0_0_1_n_n none A WL)
            (broadcastInDim S100000x32 ![0, 1] h1 (broadcastInDim S1x32 ![1] h0 b)))
          (Host.dotGeneral dot_S100000x64_S64x32_S100000x32_1_0_0_1_n_n none X WR) := by
  funext i
  obtain ⟨r, q, rfl⟩ : ∃ (r : Fin 100000) (q : Fin 32), i = ix2 r q := ⟨i 0, i 1, eq_ix2 i⟩
  show (∑ k : Fin 64, A (ix2 r k) * WL (ix2 k q) + shapeCast S1x32 b hc (ix2 (0 : Fin 1) q))
        + ∑ k : Fin 64, X (ix2 r k) * WR (ix2 k q)
    = (Host.dotGeneral dot_S100000x64_S64x32_S100000x32_1_0_0_1_n_n none A WL (ix2 r q)
          + broadcastInDim S100000x32 ![0, 1] h1 (broadcastInDim S1x32 ![1] h0 b) (ix2 r q))
        + Host.dotGeneral dot_S100000x64_S64x32_S100000x32_1_0_0_1_n_n none X WR (ix2 r q)
  rw [host_mat_dot dot_S100000x64_S64x32_S100000x32_1_0_0_1_n_n none rfl rfl Read.lhs_main_v52_0 Read.lhs_main_v52_1 Read.rhs_main_v52_0 Read.rhs_main_v52_1,
    host_mat_dot dot_S100000x64_S64x32_S100000x32_1_0_0_1_n_n none rfl rfl Read.lhs_main_v52_0 Read.lhs_main_v52_1 Read.rhs_main_v52_0 Read.rhs_main_v52_1,
    bias1_host, row_cast_apply]

end Cert.Sage.Host

end
-- ==== Proof.MeanLaw.lean ====
/-
  Multiplying by a reciprocal against dividing, on the extended reals.

  A neighbour mean is a neighbour sum scaled by the node's in-degree clamped below at one. One program forms
  the reciprocal `1 / max(g, 1)` first and multiplies by it; the other divides by `max(g, 1)`. On the extended
  reals a quotient by a NONZERO divisor is the product with the divisor's inverse, and `max(g, 1) ≥ 1 > 0` whatever
  `g` is (finite or not), so

      a · (1 / max(g, 1)) = a · (1 · max(g, 1)⁻¹) = a · max(g, 1)⁻¹ = a / max(g, 1)

  for EVERY extended real `a` and `g`: no finiteness is needed.
-/
import Idealize.ShloMosaic.PureOps.Ideal.Laws

noncomputable section

namespace Cert.Sage

open Idealize.ShloMosaic

/-- The word `0x3F800000` is the real number one. -/
theorem one_word : Ideal.ofBits .f32 0x3F800000#32 = 1 := by
  simp [Ideal.ofBits, Ideal.ieee, -EReal.coe_mul]; norm_num

/-- A clamp below at one is never zero. -/
theorem max_one_ne_zero (g : EReal) : max g 1 ≠ 0 :=
  ne_of_gt (lt_of_lt_of_le zero_lt_one (le_max_right g 1))

/-- `a · (1 / max(g, 1)) = a / max(g, 1)` on the extended reals, the ones written as their words. -/
theorem mul_recip_eq_div (a g : EReal) :
    a * Ideal.div (Ideal.ofBits .f32 0x3F800000#32) (max g (Ideal.ofBits .f32 0x3F800000#32))
      = Ideal.div a (max g (Ideal.ofBits .f32 0x3F800000#32)) := by
  rw [one_word]
  have hd : max g 1 ≠ 0 := max_one_ne_zero g
  rw [Ideal.div, if_neg hd, Ideal.div, if_neg hd, one_mul]

end Cert.Sage

end
-- ==== Proof.MeanForms.lean ====
/-
  The neighbour mean in its two forms, as whole arrays.

  The kernel multiplies the neighbour sums by the column of reciprocals `1 / max(deg, 1)` broadcast along the
  feature axis; the reference divides them by the column `max(deg, 1)` broadcast the same way. At entry (r, k) both
  broadcasts read the column at row `r`, and `a · (1 / max(g, 1)) = a / max(g, 1)` on the extended reals: the two
  arrays are equal, whatever the sums and the degrees are.
-/
import proofs.«134384_j25958782337776_1_alg».proof.Proof.MeanLaw
import proofs.«134384_j25958782337776_1_alg».proof.Proof.KernelTerms
import Idealize.ShloMosaic.Lib.Pipeline.Value
import Idealize.ShloMosaic.Lib.ValueIdx

noncomputable section

namespace Cert.Sage.Mean

open Idealize.ShloMosaic Idealize.ShloMosaic.ValueIdx Cert.KernelIdeal Cert.KernelIdeal.Facts₀ Cert.Sage.KTerms

/-- The host's quotient of two arrays, at an index. -/
theorem host_divf_apply {s : Shape} {φ : FTy} (a b : FVec Ideal s φ) (i : s.Idx) : Host.divf a b i = Ideal.div (a i) (b i) := rfl

/-- A scalar constant broadcast to a whole shape, at an index: the constant's word. -/
theorem bcast_word_apply {t : Shape} (h : S_.BroadcastsInDim t ![]) (w : BitVec 32) (i : t.Idx) :
    broadcastInDim t ![] h (constant (F := Ideal) S_ FTy.f32 w) i = Ideal.ofBits .f32 w := rfl

/-- A per-node vector made a column and broadcast along `n` features, read at (r, k): the vector at `r`. -/
theorem col_apply {n : Nat} (h0 : S100000.BroadcastsInDim S100000x1 ![0])
    (h1 : S100000x1.BroadcastsInDim (⟨2, ![100000, n]⟩ : Shape) ![0, 1]) (y : FVec Ideal S100000 .f32) (r : Fin 100000) (k : Fin n) :
    broadcastInDim (⟨2, ![100000, n]⟩ : Shape) ![0, 1] h1 (broadcastInDim S100000x1 ![0] h0 y) (ix2 r k) = y (ix1 r) := by
  rw [broadcastInDim_apply ![0, 1] h1 _ (ix2 r k) (ix2 r (0 : Fin 1)) (fun a => by
    match a with
    | ⟨0, _⟩ => show r.val = if (100000 : Nat) = 1 then 0 else r.val; rw [if_neg (by decide)]
    | ⟨1, _⟩ => show 0 = if (1 : Nat) = 1 then 0 else k.val; rw [if_pos rfl])]
  exact broadcastInDim_apply ![0] h0 y (ix2 r (0 : Fin 1)) (ix1 r) (fun a => by
    match a with
    | ⟨0, _⟩ => show r.val = if (100000 : Nat) = 1 then 0 else r.val; rw [if_neg (by decide)])

/-- The 128-wide neighbour means: the product with the reciprocal column is the quotient by the clamped degrees. -/
theorem mean128_eq_div (s d : IVec S1600000 32) (feat : FVec Ideal S100000x128 .f32) :
    mean128 s d (recipCol d) feat
      = Host.divf (agg128 s d feat)
          (broadcastInDim S100000x128 ![0, 1] bcast_S100000x1_S100000x128_0_1
            (broadcastInDim S100000x1 ![0] bcast_S100000_S100000x1_0 (degClamped d))) := by
  funext i
  obtain ⟨r, k, rfl⟩ : ∃ (r : Fin 100000) (k : Fin 128), i = ix2 r k := ⟨i 0, i 1, eq_ix2 i⟩
  unfold mean128 recipCol
  rw [mulf_apply, col_apply, host_divf_apply, host_divf_apply, col_apply]
  unfold degClamped
  rw [maximumf_apply, bcast_word_apply]
  exact mul_recip_eq_div _ _

/-- The 64-wide neighbour means, likewise. -/
theorem mean64_eq_div (s d : IVec S1600000 32) (feat : FVec Ideal S100000x64 .f32) :
    mean64 s d (recipCol d) feat
      = Host.divf (agg64 s d feat)
          (broadcastInDim S100000x64 ![0, 1] bcast_S100000x1_S100000x64_0_1
            (broadcastInDim S100000x1 ![0] bcast_S100000_S100000x1_0 (degClamped d))) := by
  funext i
  obtain ⟨r, k, rfl⟩ : ∃ (r : Fin 100000) (k : Fin 64), i = ix2 r k := ⟨i 0, i 1, eq_ix2 i⟩
  unfold mean64 recipCol
  rw [mulf_apply, col_apply, host_divf_apply, host_divf_apply, col_apply]
  unfold degClamped
  rw [maximumf_apply, bcast_word_apply]
  exact mul_recip_eq_div _ _

end Cert.Sage.Mean

end
-- ==== Proof.Bridge.lean ====
/-
  The reference's result is the kernel's function of the arguments.

  The reference computes, per layer, (neighbour sums / clamped degrees) · Wlᵀ + bias + features · Wrᵀ with the host's
  own operations, the first layer clamped below at zero and fed to the second. The kernel's function has the same
  gathers and scatter-adds of the same index columns, each neighbour mean as a product with the reciprocal column
  (equal to the quotient: the mean's two forms), and each layer as the layer function its blocks tile (equal to the
  host's operations entry by entry). Rewriting the kernel's function by those two facts, layer by layer, leaves the
  reference's term itself.
-/
import proofs.«134384_j25958782337776_1_alg».proof.Proof.Gen.ReferenceIdeal.Run
import proofs.«134384_j25958782337776_1_alg».proof.Proof.LayerHost
import proofs.«134384_j25958782337776_1_alg».proof.Proof.MeanForms
import proofs.«134384_j25958782337776_1_alg».proof.Proof.KernelTerms

set_option maxRecDepth 16384

noncomputable section

namespace Cert.Sage.Bridge

open Idealize.ShloMosaic Idealize.ShloMosaic.TcCoe Idealize.SL.Sem Cert.Sage.KTerms

/-- The hidden features in the host's operations: the first layer of the reference. -/
theorem hidden_host (e : IVec Cert.KernelIdeal.S2x1600000 32) (x : FVec Ideal Cert.KernelIdeal.S100000x128 .f32)
    (w1l : FVec Ideal Cert.KernelIdeal.S64x128 .f32) (b1 : FVec Ideal Cert.KernelIdeal.S64 .f32) (w1r : FVec Ideal Cert.KernelIdeal.S64x128 .f32) :
    hidden e x w1l b1 w1r
      = maximumf (addf (addf
            (Host.dotGeneral Cert.ReferenceIdeal.dot_S100000x128_S128x64_S100000x64_1_0_0_1_n_n none
              (Host.divf (agg128 (srcRow e) (dstRow e) x)
                (broadcastInDim Cert.KernelIdeal.S100000x128 ![0, 1] Cert.KernelIdeal.Facts₀.bcast_S100000x1_S100000x128_0_1
                  (broadcastInDim Cert.KernelIdeal.S100000x1 ![0] Cert.KernelIdeal.Facts₀.bcast_S100000_S100000x1_0 (degClamped (dstRow e)))))
              (transpose Cert.KernelIdeal.S128x64 [1, 0] w1l Cert.KernelIdeal.Facts₀.transposes_S64x128_S128x64_1_0))
            (broadcastInDim Cert.ReferenceIdeal.S100000x64 ![0, 1] Cert.ReferenceIdeal.Facts₀.bcast_S1x64_S100000x64_0_1
              (broadcastInDim Cert.ReferenceIdeal.S1x64 ![1] Cert.ReferenceIdeal.Facts₀.bcast_S64_S1x64_1 b1)))
          (Host.dotGeneral Cert.ReferenceIdeal.dot_S100000x128_S128x64_S100000x64_1_0_0_1_n_n none x
            (transpose Cert.KernelIdeal.S128x64 [1, 0] w1r Cert.KernelIdeal.Facts₀.transposes_S64x128_S128x64_1_0)))
        (broadcastInDim Cert.ReferenceIdeal.S100000x64 ![] Cert.ReferenceIdeal.Facts₀.bcast_S_S100000x64 (constant Cert.ReferenceIdeal.S_ FTy.f32 0x00000000#32)) := by
  unfold Cert.Sage.KTerms.hidden
  rw [Cert.Sage.Mean.mean128_eq_div]
  exact Cert.Sage.Host.layer0_host _ _ _ _ _ _ Cert.ReferenceIdeal.Facts₀.bcast_S64_S1x64_1
    Cert.ReferenceIdeal.Facts₀.bcast_S1x64_S100000x64_0_1 Cert.ReferenceIdeal.Facts₀.bcast_S_S100000x64

/-- The whole kernel's function in the host's operations: the reference's two layers. -/
theorem out_host (x : FVec Ideal Cert.KernelIdeal.S100000x128 .f32) (e : IVec Cert.KernelIdeal.S2x1600000 32)
    (w1l : FVec Ideal Cert.KernelIdeal.S64x128 .f32) (b1 : FVec Ideal Cert.KernelIdeal.S64 .f32) (w1r : FVec Ideal Cert.KernelIdeal.S64x128 .f32)
    (w2l : FVec Ideal Cert.KernelIdeal.S32x64 .f32) (b2 : FVec Ideal Cert.KernelIdeal.S32 .f32) (w2r : FVec Ideal Cert.KernelIdeal.S32x64 .f32) :
    out x e w1l b1 w1r w2l b2 w2r
      = addf (addf
          (Host.dotGeneral Cert.ReferenceIdeal.dot_S100000x64_S64x32_S100000x32_1_0_0_1_n_n none
            (Host.divf (agg64 (srcRow e) (dstRow e) (hidden e x w1l b1 w1r))
              (broadcastInDim Cert.KernelIdeal.S100000x64 ![0, 1] Cert.KernelIdeal.Facts₀.bcast_S100000x1_S100000x64_0_1
                (broadcastInDim Cert.KernelIdeal.S100000x1 ![0] Cert.KernelIdeal.Facts₀.bcast_S100000_S100000x1_0 (degClamped (dstRow e)))))
            (transpose Cert.KernelIdeal.S64x32 [1, 0] w2l Cert.KernelIdeal.Facts₀.transposes_S32x64_S64x32_1_0))
          (broadcastInDim Cert.ReferenceIdeal.S100000x32 ![0, 1] Cert.ReferenceIdeal.Facts₀.bcast_S1x32_S100000x32_0_1
            (broadcastInDim Cert.ReferenceIdeal.S1x32 ![1] Cert.ReferenceIdeal.Facts₀.bcast_S32_S1x32_1 b2)))
        (Host.dotGeneral Cert.ReferenceIdeal.dot_S100000x64_S64x32_S100000x32_1_0_0_1_n_n none (hidden e x w1l b1 w1r)
          (transpose Cert.KernelIdeal.S64x32 [1, 0] w2r Cert.KernelIdeal.Facts₀.transposes_S32x64_S64x32_1_0)) := by
  unfold Cert.Sage.KTerms.out
  rw [Cert.Sage.Mean.mean64_eq_div]
  exact Cert.Sage.Host.layer1_host _ _ _ _ _ _ Cert.ReferenceIdeal.Facts₀.bcast_S32_S1x32_1
    Cert.ReferenceIdeal.Facts₀.bcast_S1x32_S100000x32_0_1

open Cert.ReferenceIdeal in
/-- The reference run's result term is the kernel's function of the same argument arrays. -/
theorem ref_eq_out (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v58 m c
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  rw [out_host, hidden_host]
  unfold Cert.ReferenceIdeal.Value.res_main_v58 Cert.Sage.KTerms.agg64 Cert.Sage.KTerms.agg128 Cert.Sage.KTerms.degClamped Cert.Sage.KTerms.dstCol Cert.Sage.KTerms.srcCol Cert.Sage.KTerms.srcRow Cert.Sage.KTerms.dstRow
  rfl

end Cert.Sage.Bridge

end
-- ==== Proof.lean ====
/-
  Two layers of mean-aggregating graph convolution: the kernel against its reference, over the extended reals.

  Both programs compute, for node features x [100000 × 128] and an edge list, twice over,

      layer(f) = mean_nbr(f) · Wlᵀ + b + f · Wrᵀ,      mean_nbr(f)[i] = (Σ_{edges j→i} f[j]) / max(deg i, 1),

  the first layer clamped below at zero and fed to the second. The gathers and scatter-adds are the same host
  operations in both. They differ in two places. (1) The kernel forms the reciprocal `1 / max(deg, 1)` once and
  multiplies the neighbour sums by it where the reference divides; on the extended reals these agree for every
  value because `max(deg, 1) ≠ 0` (Proof/MeanLaw.lean, Proof/MeanForms.lean). (2) The kernel computes each layer's
  products, bias and clamp in a region of 20 row blocks of 5000 rows, after narrowing the operands to bf16 — the
  identity on the extended reals — where the reference uses the host's matrix products on whole arrays: block by
  block the regions tile the same function (Proof/LayerBody.lean, LayerBlocks0/1.lean, LayerHost.lean). The
  kernel's run is read through its four segments in Proof/KernelRun.lean and Proof/KernelValue.lean; the two
  results are identified in Proof/Bridge.lean. No finiteness of the inputs is used.
-/
import proofs.«134384_j25958782337776_1_alg».proof.Defs
import proofs.«134384_j25958782337776_1_alg».proof.Proof.Gen.Kernel
import proofs.«134384_j25958782337776_1_alg».proof.Proof.Gen.Kernel.Skeleton
import proofs.«134384_j25958782337776_1_alg».proof.Proof.Gen.Kernel.Launch
import proofs.«134384_j25958782337776_1_alg».proof.Proof.Gen.Kernel.Points
import proofs.«134384_j25958782337776_1_alg».proof.Proof.Gen.Kernel.Frame
import proofs.«134384_j25958782337776_1_alg».proof.Proof.Gen.KernelIdeal
import proofs.«134384_j25958782337776_1_alg».proof.Proof.Gen.KernelIdeal.Skeleton
import proofs.«134384_j25958782337776_1_alg».proof.Proof.Gen.KernelIdeal.Launch
import proofs.«134384_j25958782337776_1_alg».proof.Proof.Gen.KernelIdeal.Points
import proofs.«134384_j25958782337776_1_alg».proof.Proof.Gen.KernelIdeal.Frame
import proofs.«134384_j25958782337776_1_alg».proof.Proof.Gen.ReferenceIdeal
import proofs.«134384_j25958782337776_1_alg».proof.Proof.Gen.Pre_finite_inputs
import proofs.«134384_j25958782337776_1_alg».proof.Proof.Gen.ReferenceIdeal.Read
import proofs.«134384_j25958782337776_1_alg».proof.Proof.KernelRun
import proofs.«134384_j25958782337776_1_alg».proof.Proof.KernelValue
import proofs.«134384_j25958782337776_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- From memories agreeing on the arguments both idealized programs end with the kernel's function of the arguments
    in their result buffers. -/
theorem algebraic : Cert.algebraic_KernelIdeal_ReferenceIdeal := by
  intro m ρ m' ρ' _ hagree
  refine ⟨fun c => Cert.Sage.KTerms.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Sage.KValue.result m ρ c), (h c).2⟩)
      (Cert.Sage.Run.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.Sage.Bridge.ref_eq_out m' c, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
